-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S64x2048x768 : S_.BroadcastsInDim S64x2048x768 (![] : Fin 0 → Fin S64x2048x768.rank)
  reducesTo_S64x2048x768_S_d0_1_2 : S64x2048x768.ReducesTo [0, 1, 2] S_
  bcast_S_S64x768x2048 : S_.BroadcastsInDim S64x768x2048 (![] : Fin 0 → Fin S64x768x2048.rank)
  reducesTo_S64x768x2048_S_d0_1_2 : S64x768x2048.ReducesTo [0, 1, 2] S_

variable [Facts]

def fn_part1 {F : FTy → Type} [FloatOps F] (main_v13 : IVec S_ 1) (main_v16 : IVec S64x768x2048 1) : IVec S_ 1 :=
  let main_c_5 : IVec S_ 1 := constantI S_ 1 1#1
  let main_v17 : IVec S_ 1 := (fun x v => Host.reduce IntOp.andi x v reducesTo_S64x768x2048_S_d0_1_2 h_S_) main_v16 main_c_5
  let main_v18 : IVec S_ 1 := andi main_v13 main_v17
  main_v18

def fn {F : FTy → Type} [FloatOps F] (main_arg0 : FVec F S4096x2048 .f32) (main_arg1 : IVec S64 32) (main_arg2 : FVec F S64x2048x768 .f32) (main_arg3 : FVec F S64x2048x768 .f32) (main_arg4 : FVec F S64x768x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S64x2048x768 .f32 := Host.absf main_arg2
  let main_cst_0 : FVec F S_ .f32 := constant S_ .f32 0x7F800000#32
  let main_v5 : FVec F S64x2048x768 .f32 := broadcastInDim S64x2048x768 ![] bcast_S_S64x2048x768 main_cst_0
  let main_v6 : IVec S64x2048x768 1 := cmpf .olt main_v4 main_v5
  let main_c_1 : IVec S_ 1 := constantI S_ 1 1#1
  let main_v7 : IVec S_ 1 := (fun x v => Host.reduce IntOp.andi x v reducesTo_S64x2048x768_S_d0_1_2 h_S_) main_v6 main_c_1
  let main_v8 : IVec S_ 1 := andi main_v3 main_v7
  let main_v9 : FVec F S64x2048x768 .f32 := Host.absf main_arg3
  let main_cst_2 : FVec F S_ .f32 := constant S_ .f32 0x7F800000#32
  let main_v10 : FVec F S64x2048x768 .f32 := broadcastInDim S64x2048x768 ![] bcast_S_S64x2048x768 main_cst_2
  let main_v11 : IVec S64x2048x768 1 := cmpf .olt main_v9 main_v10
  let main_c_3 : IVec S_ 1 := constantI S_ 1 1#1
  let main_v12 : IVec S_ 1 := (fun x v => Host.reduce IntOp.andi x v reducesTo_S64x2048x768_S_d0_1_2 h_S_) main_v11 main_c_3
  let main_v13 : IVec S_ 1 := andi main_v8 main_v12
  let main_v14 : FVec F S64x768x2048 .f32 := Host.absf main_arg4
  let main_cst_4 : FVec F S_ .f32 := constant S_ .f32 0x7F800000#32
  let main_v15 : FVec F S64x768x2048 .f32 := broadcastInDim S64x768x2048 ![] bcast_S_S64x768x2048 main_cst_4
  let main_v16 : IVec S64x768x2048 1 := cmpf .olt main_v14 main_v15
  fn_part1 (F := F) main_v13 main_v16
-- ==== Kernel.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S64x64x2048 : Shape := ⟨3, ![64, 64, 2048]⟩
abbrev S1x64x2048 : Shape := ⟨3, ![1, 64, 2048]⟩
abbrev S1x2048x768 : Shape := ⟨3, ![1, 2048, 768]⟩
abbrev S1x768x2048 : Shape := ⟨3, ![1, 768, 2048]⟩
abbrev S64x2048 : Shape := ⟨2, ![64, 2048]⟩
abbrev S2048x768 : Shape := ⟨2, ![2048, 768]⟩
abbrev S768x2048 : Shape := ⟨2, ![768, 2048]⟩
abbrev S64x768 : Shape := ⟨2, ![64, 768]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x768, .f32⟩
  | .hbm, ⟨3, _⟩ => ⟨S64x2048x768, .f32⟩
  | .hbm, ⟨4, _⟩ => ⟨S64x768x2048, .f32⟩
  | .hbm, ⟨5, _⟩ => ⟨S64x64x2048, .f32⟩
  | .hbm, ⟨6, _⟩ => ⟨S64x64x2048, .f32⟩
  | .hbm, ⟨7, _⟩ => ⟨S4096x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x768x2048, .f32⟩
  | .local _ .vmem, ⟨7, _⟩ => ⟨S1x768x2048, .f32⟩
  | .local _ .vmem, ⟨8, _⟩ => ⟨S1x64x2048, .f32⟩
  | .local _ .vmem, ⟨9, _⟩ => ⟨S1x64x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x2048_S64x64x2048 : S4096x2048.ShapeCasts S64x64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  shapeCasts_S64x2048_S1x64x2048 : S64x2048.ShapeCasts S1x64x2048
  shapeCasts_S64x64x2048_S4096x2048 : S64x64x2048.ShapeCasts S4096x2048
  dot_S64x2048_S2048x768_S64x768_1_0_0_1_n_n_wf : DotDims.WF S64x2048 S2048x768 S64x768 [1] [0] [0] [1] [] []
  dot_S64x768_S768x2048_S64x2048_1_0_0_1_n_n_wf : DotDims.WF S64x768 S768x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x2048.size a
  hwx0_0 : ∀ i : grid0.Coords, EltTy.bits .f32 = 32 ∨ (Rect.block (s := S64x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S64x2048x768.size a
  hwx0_1 : ∀ i : grid0.Coords, EltTy.bits .f32 = 32 ∨ (Rect.block (s := S64x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S64x2048x768.size a
  hwx0_2 : ∀ i : grid0.Coords, EltTy.bits .f32 = 32 ∨ (Rect.block (s := S64x2048x768) S1x2048x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x2048.size a ≤ S64x768x2048.size a
  hwx0_3 : ∀ i : grid0.Coords, EltTy.bits .f32 = 32 ∨ (Rect.block (s := S64x768x2048) S1x768x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S64x64x2048.size a
  hwx0_4 : ∀ i : grid0.Coords, EltTy.bits .f32 = 32 ∨ (Rect.block (s := S64x64x2048) S1x64x2048.size (cc0_transform_4 i) (hinb0_4 i)).WholeWords (EltTy.packing .f32)

variable [Facts₀]

def dot_S64x2048_S2048x768_S64x768_1_0_0_1_n_n : DotDims S64x2048 S2048x768 S64x768 where
  lhsContracting := [1]
  rhsContracting := [0]
  lhsNonContracting := [0]
  rhsNonContracting := [1]
  lhsBatch := []
  rhsBatch := []
  wf := dot_S64x2048_S2048x768_S64x768_1_0_0_1_n_n_wf
def dot_S64x768_S768x2048_S64x2048_1_0_0_1_n_n : DotDims S64x768 S768x2048 S64x2048 where
  lhsContracting := [1]
  rhsContracting := [0]
  lhsNonContracting := [0]
  rhsNonContracting := [1]
  lhsBatch := []
  rhsBatch := []
  wf := dot_S64x768_S768x2048_S64x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x768x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S64 : Shape := ⟨1, ![64]⟩
abbrev S64x2048x768 : Shape := ⟨3, ![64, 2048, 768]⟩
abbrev S64x768x2048 : Shape := ⟨3, ![64, 768, 2048]⟩
abbrev S64x64x2048 : Shape := ⟨3, ![64, 64, 2048]⟩
abbrev S64x64x768 : Shape := ⟨3, ![64, 64, 768]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S64, .i32⟩
  | .hbm, ⟨2, _⟩ => ⟨S64x2048x768, .f32⟩
  | .hbm, ⟨3, _⟩ => ⟨S64x2048x768, .f32⟩
  | .hbm, ⟨4, _⟩ => ⟨S64x768x2048, .f32⟩
  | .hbm, ⟨5, _⟩ => ⟨S64x64x2048, .f32⟩
  | .hbm, ⟨6, _⟩ => ⟨S64x64x768, .f32⟩
  | .hbm, ⟨7, _⟩ => ⟨S64x64x768, .f32⟩
  | .hbm, ⟨8, _⟩ => ⟨S64x64x768, .f32⟩
  | .hbm, ⟨9, _⟩ => ⟨S64x64x768, .f32⟩
  | .hbm, ⟨10, _⟩ => ⟨S_, .f32⟩
  | .hbm, ⟨11, _⟩ => ⟨S64x64x768, .f32⟩
  | .hbm, ⟨12, _⟩ => ⟨S64x64x768, .f32⟩
  | .hbm, ⟨13, _⟩ => ⟨S_, .f32⟩
  | .hbm, ⟨14, _⟩ => ⟨S64x64x768, .f32⟩
  | .hbm, ⟨15, _⟩ => ⟨S64x64x768, .f32⟩
  | .hbm, ⟨16, _⟩ => ⟨S64x64x768, .f32⟩
  | .hbm, ⟨17, _⟩ => ⟨S64x64x768, .f32⟩
  | .hbm, ⟨18, _⟩ => ⟨S64x64x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S4096x2048_S64x64x2048 : S4096x2048.ShapeCasts S64x64x2048
  bcast_S_S64x64x768 : S_.BroadcastsInDim S64x64x768 (![] : Fin 0 → Fin S64x64x768.rank)
  shapeCasts_S64x64x2048_S4096x2048 : S64x64x2048.ShapeCasts S4096x2048
  dot_S64x64x2048_S64x2048x768_S64x64x768_2_1_1_2_0_0_wf : DotDims.WF S64x64x2048 S64x2048x768 S64x64x768 [2] [1] [1] [2] [0] [0]
  dot_S64x64x768_S64x768x2048_S64x64x2048_2_1_1_2_0_0_wf : DotDims.WF S64x64x768 S64x768x2048 S64x64x2048 [2] [1] [1] [2] [0] [0]

variable [Facts₀]

def dot_S64x64x2048_S64x2048x768_S64x64x768_2_1_1_2_0_0 : DotDims S64x64x2048 S64x2048x768 S64x64x768 where
  lhsContracting := [2]
  rhsContracting := [1]
  lhsNonContracting := [1]
  rhsNonContracting := [2]
  lhsBatch := [0]
  rhsBatch := [0]
  wf := dot_S64x64x2048_S64x2048x768_S64x64x768_2_1_1_2_0_0_wf
def dot_S64x64x768_S64x768x2048_S64x64x2048_2_1_1_2_0_0 : DotDims S64x64x768 S64x768x2048 S64x64x2048 where
  lhsContracting := [2]
  rhsContracting := [1]
  lhsNonContracting := [1]
  rhsNonContracting := [2]
  lhsBatch := [0]
  rhsBatch := [0]
  wf := dot_S64x64x768_S64x768x2048_S64x64x2048_2_1_1_2_0_0_wf

class Facts : Prop extends Facts₀ where

variable [Facts]
-- ==== Proof.Spec.lean ====
/-
  The mathematics both programs compute, stated once with no program in sight.

  A token is a row `x : Fin 2048 → EReal`. An expert has three weight matrices: the gate and up projections
  `Wg, Wu : 2048 × 768` and the down projection `Wd : 768 × 2048`. The expert maps the token to the row whose
  entry `h` is

      Σ_i  (a_i · σ(a_i) · b_i) · Wd[i, h],      a_i = Σ_k x[k] · Wg[k, i],   b_i = Σ_k x[k] · Wu[k, i],

  where `σ(a) = 1 / (1 + e^(-a))` is the logistic function on the extended reals. The 4096 tokens come sorted by
  expert in 64 groups of 64, so the whole result, viewed as a [64, 64, 2048] array, has at (e, g, h) the
  entry `h` of expert `e` applied to token `g` of group `e`. Every sum is a finite sum of products, taken
  in the commutative monoid of the extended reals: no distributivity is used anywhere, so nothing
  here asks the inputs to be finite.
-/
import Idealize.ShloMosaic.PureOps.Ideal
import Idealize.ShloMosaic.Lib.ValueIdx

noncomputable section

namespace Cert.ExpertFFN

open Idealize.ShloMosaic Idealize.ShloMosaic.ValueIdx

/-- The gated unit of one hidden channel: `a · σ(a) · b`, the gate pre-activation `a` times its logistic times the
    up-projection `b`. -/
def gated (a b : EReal) : EReal := a * Ideal.logistic a * b

/-- One output entry of one expert on one token: the token row `x`, the gate and up matrices, and the column `wd` of the
    down matrix that belongs to the output entry. -/
def expert (x : Fin 2048 → EReal) (wg wu : Fin 2048 → Fin 768 → EReal) (wd : Fin 768 → EReal) : EReal :=
  ∑ i : Fin 768, gated (∑ k : Fin 2048, x k * wg k i) (∑ k : Fin 2048, x k * wu k i) * wd i

/-- The grouped feed-forward as one array: at (e, g, h), expert `e` on token `g` of group `e`, output entry `h`. -/
def ffn (xg : (⟨3, ![64, 64, 2048]⟩ : Shape).Idx → EReal) (wg wu : (⟨3, ![64, 2048, 768]⟩ : Shape).Idx → EReal)
    (wd : (⟨3, ![64, 768, 2048]⟩ : Shape).Idx → EReal) : (⟨3, ![64, 64, 2048]⟩ : Shape).Idx → EReal :=
  fun j => expert (fun k => xg (ix3 (j 0) (j 1) k)) (fun k i => wg (ix3 (j 0) k i)) (fun k i => wu (ix3 (j 0) k i))
    (fun i => wd (ix3 (j 0) i (j 2)))

/-- The array at literal coordinates: the expert of the group on the token's row, against the entry's down column. -/
theorem ffn_apply (xg : (⟨3, ![64, 64, 2048]⟩ : Shape).Idx → EReal) (wg wu : (⟨3, ![64, 2048, 768]⟩ : Shape).Idx → EReal)
    (wd : (⟨3, ![64, 768, 2048]⟩ : Shape).Idx → EReal) (e g : Fin 64) (h : Fin 2048) :
    ffn xg wg wu wd (ix3 e g h)
      = expert (fun k => xg (ix3 e g k)) (fun k i => wg (ix3 e k i)) (fun k i => wu (ix3 e k i)) (fun i => wd (ix3 e i h)) := rfl

end Cert.ExpertFFN

end
-- ==== Proof.BodyValue.lean ====
/-
  What one grid point's body stores, read at an index.

  At a grid point the body holds one expert's blocks: the group's 64 tokens `[1, 64, 2048]`, the gate and up matrices
  `[1, 2048, 768]` and the down matrix `[1, 768, 2048]`. It drops the leading unit axis of each, rounds to bf16 (the
  identity on the extended reals), forms the two products `tokens · Wg` and `tokens · Wu` into a zero accumulator,
  multiplies the first by its logistic and by the second, rounds again, multiplies by `Wd` into a zero accumulator, and
  puts the unit axis back. A matrix product into a zero accumulator is, entry by entry, the plain sum over the contracted
  axis of the products of the two operands' entries. So the stored block at (0, g, h) is the specification's `expert`
  on row `g` of the token block, the two projection blocks, and column `h` of the down block.
-/
import proofs.«181612_j63952063037999_2_alg».proof.Proof.Gen.KernelIdeal.Skeleton
import proofs.«181612_j63952063037999_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Cert.ExpertFFN
open Idealize.ShloMosaic Idealize.ShloMosaic.ValueIdx

/-! ## The projections: a [64, 2048] × [2048, 768] product, rows × contraction times contraction × columns -/

theorem proj_lhs_0 (j : S64x768.Idx) (q : dot_S64x2048_S2048x768_S64x768_1_0_0_1_n_n.contr.Idx) : (dot_S64x2048_S2048x768_S64x768_1_0_0_1_n_n.lhsIdx j q 0).val = (j 0).val := by
  unfold DotDims.lhsIdx
  rw [dif_neg (show ¬(0 : Fin S64x2048.rank) ∈ dot_S64x2048_S2048x768_S64x768_1_0_0_1_n_n.lhsBatch by decide),
    dif_pos (show (0 : Fin S64x2048.rank) ∈ dot_S64x2048_S2048x768_S64x768_1_0_0_1_n_n.lhsNonContracting by decide)]
  rfl
theorem proj_lhs_1 (j : S64x768.Idx) (q : dot_S64x2048_S2048x768_S64x768_1_0_0_1_n_n.contr.Idx) : (dot_S64x2048_S2048x768_S64x768_1_0_0_1_n_n.lhsIdx j q 1).val = (q ⟨0, by decide⟩).val :=
  dot_S64x2048_S2048x768_S64x768_1_0_0_1_n_n.lhsIdx_val_of_single rfl j q
theorem proj_rhs_0 (j : S64x768.Idx) (q : dot_S64x2048_S2048x768_S64x768_1_0_0_1_n_n.contr.Idx) : (dot_S64x2048_S2048x768_S64x768_1_0_0_1_n_n.rhsIdx j q 0).val = (q ⟨0, by decide⟩).val :=
  dot_S64x2048_S2048x768_S64x768_1_0_0_1_n_n.rhsIdx_val_of_single rfl j q
theorem proj_rhs_1 (j : S64x768.Idx) (q : dot_S64x2048_S2048x768_S64x768_1_0_0_1_n_n.contr.Idx) : (dot_S64x2048_S2048x768_S64x768_1_0_0_1_n_n.rhsIdx j q 1).val = (j 1).val := by
  unfold DotDims.rhsIdx
  rw [dif_neg (show ¬(1 : Fin S2048x768.rank) ∈ dot_S64x2048_S2048x768_S64x768_1_0_0_1_n_n.rhsBatch by decide),
    dif_pos (show (1 : Fin S2048x768.rank) ∈ dot_S64x2048_S2048x768_S64x768_1_0_0_1_n_n.rhsNonContracting by decide)]
  rfl

/-- A projection into a zero accumulator, at (g, i): the sum over the 2048 input channels of token entry times weight entry. -/
theorem proj_apply (l : FVec Ideal S64x2048 .bf16) (r : FVec Ideal S2048x768 .bf16) (g : Fin 64) (i : Fin 768) :
    matmul dot_S64x2048_S2048x768_S64x768_1_0_0_1_n_n none l r (constant (F := Ideal) S64x768 .f32 0x00000000#32) (ix2 g i)
      = ∑ k : Fin 2048, l (ix2 g k) * r (ix2 k i) := by
  refine (Ideal.matmul_constant_zero_apply dot_S64x2048_S2048x768_S64x768_1_0_0_1_n_n none l r (ix2 g i)).trans ?_
  rw [← Equiv.sum_comp (contrEquiv1 dot_S64x2048_S2048x768_S64x768_1_0_0_1_n_n 2048 rfl rfl).symm]
  refine Finset.sum_congr rfl fun k _ => ?_
  have hk := contrEquiv1_symm_val dot_S64x2048_S2048x768_S64x768_1_0_0_1_n_n 2048 rfl rfl k
  have el : dot_S64x2048_S2048x768_S64x768_1_0_0_1_n_n.lhsIdx (ix2 g i) ((contrEquiv1 dot_S64x2048_S2048x768_S64x768_1_0_0_1_n_n 2048 rfl rfl).symm k) = ix2 g k := funext fun a => Fin.ext (by
    match a with
    | ⟨0, _⟩ => exact proj_lhs_0 _ _
    | ⟨1, _⟩ => exact (proj_lhs_1 _ _).trans hk)
  have er : dot_S64x2048_S2048x768_S64x768_1_0_0_1_n_n.rhsIdx (ix2 g i) ((contrEquiv1 dot_S64x2048_S2048x768_S64x768_1_0_0_1_n_n 2048 rfl rfl).symm k) = ix2 k i := funext fun a => Fin.ext (by
    match a with
    | ⟨0, _⟩ => exact (proj_rhs_0 _ _).trans hk
    | ⟨1, _⟩ => exact proj_rhs_1 _ _)
  rw [el, er]

/-! ## The down projection: a [64, 768] × [768, 2048] product -/

theorem down_lhs_0 (j : S64x2048.Idx) (q : dot_S64x768_S768x2048_S64x2048_1_0_0_1_n_n.contr.Idx) : (dot_S64x768_S768x2048_S64x2048_1_0_0_1_n_n.lhsIdx j q 0).val = (j 0).val := by
  unfold DotDims.lhsIdx
  rw [dif_neg (show ¬(0 : Fin S64x768.rank) ∈ dot_S64x768_S768x2048_S64x2048_1_0_0_1_n_n.lhsBatch by decide),
    dif_pos (show (0 : Fin S64x768.rank) ∈ dot_S64x768_S768x2048_S64x2048_1_0_0_1_n_n.lhsNonContracting by decide)]
  rfl
theorem down_lhs_1 (j : S64x2048.Idx) (q : dot_S64x768_S768x2048_S64x2048_1_0_0_1_n_n.contr.Idx) : (dot_S64x768_S768x2048_S64x2048_1_0_0_1_n_n.lhsIdx j q 1).val = (q ⟨0, by decide⟩).val :=
  dot_S64x768_S768x2048_S64x2048_1_0_0_1_n_n.lhsIdx_val_of_single rfl j q
theorem down_rhs_0 (j : S64x2048.Idx) (q : dot_S64x768_S768x2048_S64x2048_1_0_0_1_n_n.contr.Idx) : (dot_S64x768_S768x2048_S64x2048_1_0_0_1_n_n.rhsIdx j q 0).val = (q ⟨0, by decide⟩).val :=
  dot_S64x768_S768x2048_S64x2048_1_0_0_1_n_n.rhsIdx_val_of_single rfl j q
theorem down_rhs_1 (j : S64x2048.Idx) (q : dot_S64x768_S768x2048_S64x2048_1_0_0_1_n_n.contr.Idx) : (dot_S64x768_S768x2048_S64x2048_1_0_0_1_n_n.rhsIdx j q 1).val = (j 1).val := by
  unfold DotDims.rhsIdx
  rw [dif_neg (show ¬(1 : Fin S768x2048.rank) ∈ dot_S64x768_S768x2048_S64x2048_1_0_0_1_n_n.rhsBatch by decide),
    dif_pos (show (1 : Fin S768x2048.rank) ∈ dot_S64x768_S768x2048_S64x2048_1_0_0_1_n_n.rhsNonContracting by decide)]
  rfl

/-- The down projection into a zero accumulator, at (g, h): the sum over the 768 hidden channels. -/
theorem down_apply (l : FVec Ideal S64x768 .bf16) (r : FVec Ideal S768x2048 .bf16) (g : Fin 64) (h : Fin 2048) :
    matmul dot_S64x768_S768x2048_S64x2048_1_0_0_1_n_n none l r (constant (F := Ideal) S64x2048 .f32 0x00000000#32) (ix2 g h)
      = ∑ i : Fin 768, l (ix2 g i) * r (ix2 i h) := by
  refine (Ideal.matmul_constant_zero_apply dot_S64x768_S768x2048_S64x2048_1_0_0_1_n_n none l r (ix2 g h)).trans ?_
  rw [← Equiv.sum_comp (contrEquiv1 dot_S64x768_S768x2048_S64x2048_1_0_0_1_n_n 768 rfl rfl).symm]
  refine Finset.sum_congr rfl fun i _ => ?_
  have hi := contrEquiv1_symm_val dot_S64x768_S768x2048_S64x2048_1_0_0_1_n_n 768 rfl rfl i
  have el : dot_S64x768_S768x2048_S64x2048_1_0_0_1_n_n.lhsIdx (ix2 g h) ((contrEquiv1 dot_S64x768_S768x2048_S64x2048_1_0_0_1_n_n 768 rfl rfl).symm i) = ix2 g i := funext fun a => Fin.ext (by
    match a with
    | ⟨0, _⟩ => exact down_lhs_0 _ _
    | ⟨1, _⟩ => exact (down_lhs_1 _ _).trans hi)
  have er : dot_S64x768_S768x2048_S64x2048_1_0_0_1_n_n.rhsIdx (ix2 g h) ((contrEquiv1 dot_S64x768_S768x2048_S64x2048_1_0_0_1_n_n 768 rfl rfl).symm i) = ix2 i h := funext fun a => Fin.ext (by
    match a with
    | ⟨0, _⟩ => exact (down_rhs_0 _ _).trans hi
    | ⟨1, _⟩ => exact down_rhs_1 _ _)
  rw [el, er]

/-! ## The gated hidden activations -/

/-- The body's hidden activations at (g, i): the gate sum times its logistic times the up sum. Rounding to bf16 is the
    identity on the extended reals, and `tpu.logistic` is the logistic function. -/
theorem hidden_apply (xe : FVec Ideal S64x2048 .bf16) (wg wu : FVec Ideal S2048x768 .bf16) (g : Fin 64) (i : Fin 768) :
    (truncf .bf16
        (mulf (mulf (matmul dot_S64x2048_S2048x768_S64x768_1_0_0_1_n_n none xe wg (constant (F := Ideal) S64x768 .f32 0x00000000#32))
            (logistic (matmul dot_S64x2048_S2048x768_S64x768_1_0_0_1_n_n none xe wg (constant (F := Ideal) S64x768 .f32 0x00000000#32))))
          (matmul dot_S64x2048_S2048x768_S64x768_1_0_0_1_n_n none xe wu (constant (F := Ideal) S64x768 .f32 0x00000000#32)))
        bitsLt_bf16_f32 : FVec Ideal S64x768 .bf16) (ix2 g i)
      = gated (∑ k : Fin 2048, xe (ix2 g k) * wg (ix2 k i)) (∑ k : Fin 2048, xe (ix2 g k) * wu (ix2 k i)) := by
  unfold gated
  rw [← proj_apply xe wg g i, ← proj_apply xe wu g i]
  rfl

/-! ## The stored block -/

/-- THE BODY'S PAYLOAD AT AN INDEX: the block stored at a grid point, at (0, g, h), is the expert's output entry `h` on
    token `g`, over the four loaded blocks read at their own (0, ·, ·) indices. -/
theorem pay_apply (x0 : Vec Ideal S1x64x2048 .f32) (x1 x2 : Vec Ideal S1x2048x768 .f32) (x3 : Vec Ideal S1x768x2048 .f32)
    (g : Fin 64) (h : Fin 2048) :
    k0_pay1 x0 x1 x2 x3 (ix3 (0 : Fin 1) g h)
      = expert (fun k => x0 (ix3 (0 : Fin 1) g k)) (fun k i => x1 (ix3 (0 : Fin 1) k i)) (fun k i => x2 (ix3 (0 : Fin 1) k i))
          (fun i => x3 (ix3 (0 : Fin 1) i h)) := by
  unfold k0_pay1
  refine (shapeCast_ab_1ab_apply _ shapeCasts_S64x2048_S1x64x2048 (0 : Fin 1) g h).trans ?_
  refine (down_apply _ _ g h).trans ?_
  unfold expert
  refine Finset.sum_congr rfl fun i _ => ?_
  refine congrArg₂ (· * ·) ?_ ?_
  · refine (hidden_apply _ _ _ g i).trans ?_
    refine congrArg₂ gated (Finset.sum_congr rfl fun k _ => congrArg₂ (· * ·) ?_ ?_)
      (Finset.sum_congr rfl fun k _ => congrArg₂ (· * ·) ?_ ?_)
    · exact shapeCast_1ab_ab_apply x0 shapeCasts_S1x64x2048_S64x2048 g k
    · exact shapeCast_1ab_ab_apply x1 shapeCasts_S1x2048x768_S2048x768 k i
    · exact shapeCast_1ab_ab_apply x0 shapeCasts_S1x64x2048_S64x2048 g k
    · exact shapeCast_1ab_ab_apply x2 shapeCasts_S1x2048x768_S2048x768 k i
  · exact shapeCast_1ab_ab_apply x3 shapeCasts_S1x768x2048_S768x2048 i h

/-- THE STORED BLOCK IS A BLOCK OF THE WHOLE RESULT: when the four loaded blocks are expert `e`'s slices of the whole
    token, gate, up and down arrays (each block entry (0, a, b) the array's entry (e, a, b)), the block stored at
    (0, g, h) is the grouped feed-forward's entry (e, g, h). -/
theorem block_eq (xg : (⟨3, ![64, 64, 2048]⟩ : Shape).Idx → EReal) (wg wu : (⟨3, ![64, 2048, 768]⟩ : Shape).Idx → EReal)
    (wd : (⟨3, ![64, 768, 2048]⟩ : Shape).Idx → EReal) (e : Fin 64)
    (x0 : Vec Ideal S1x64x2048 .f32) (x1 x2 : Vec Ideal S1x2048x768 .f32) (x3 : Vec Ideal S1x768x2048 .f32)
    (h0 : ∀ (g : Fin 64) (k : Fin 2048), x0 (ix3 (0 : Fin 1) g k) = xg (ix3 e g k))
    (h1 : ∀ (k : Fin 2048) (i : Fin 768), x1 (ix3 (0 : Fin 1) k i) = wg (ix3 e k i))
    (h2 : ∀ (k : Fin 2048) (i : Fin 768), x2 (ix3 (0 : Fin 1) k i) = wu (ix3 e k i))
    (h3 : ∀ (i : Fin 768) (h : Fin 2048), x3 (ix3 (0 : Fin 1) i h) = wd (ix3 e i h))
    (g : Fin 64) (h : Fin 2048) :
    k0_pay1 x0 x1 x2 x3 (ix3 (0 : Fin 1) g h) = ffn xg wg wu wd (ix3 e g h) := by
  rw [pay_apply, ffn_apply]
  simp only [h0, h1, h2, h3]

end Cert.KernelIdeal.BodyValue

end
-- ==== Proof.RunValue.lean ====
/-
  From blocks to the whole result, and through the reshapes on either side of the region.

  The grid has one point per expert. At point `t` every window's block index is (t, 0, 0): the token window reads group
  `t` of the reshaped tokens, the three weight windows read expert `t`'s matrices, and the output window writes group
  `t` of the [64, 64, 2048] result. So what point `t` writes back is block `t` of ONE whole-array function, the
  grouped feed-forward `ffn` of the arrays as the region finds them; every index (e, g, h) of the result lies in
  point `e`'s block, so after the last point the array IS `ffn`. Before the region the tokens are reshaped from
  [4096, 2048] to [64, 64, 2048], and after it the result is reshaped back: both are carried as the reshape they are,
  never opened, because the reference applies the same two.
-/
import proofs.«181612_j63952063037999_2_alg».proof.Proof.Gen.KernelIdeal.Frame
import proofs.«181612_j63952063037999_2_alg».proof.Proof.BodyValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.BodyValue Cert.ExpertFFN
open Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The grid point as an expert (and group) number. -/
def grp (t : Fin cfg0.N) : Fin 64 := ⟨t.val, lt_of_lt_of_eq t.isLt N_0⟩

/-- The printed index maps, decided once over the 64 points: every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## Each input window's block is its expert's slice of the array -/

/-- The token block at point `t`: entry (0, g, k) is the reshaped tokens' entry (t, g, k). -/
theorem tokens_blk (c : Dev nD) (t : Fin cfg0.N) (g : Fin 64) (k : Fin 2048) :
    (iblk m c 0 t : Vec Ideal S1x64x2048 .f32) (ix3 (0 : Fin 1) g k)
      = (V m c main_v0 : S64x64x2048.Idx → Elt Ideal .f32) (ix3 (grp t) g k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 64 + 1 * g.val = g.val; omega
  | ⟨2, _⟩ => show win0_0.index t (2 : Fin 3) * 2048 + 1 * k.val = k.val; omega

/-- The gate block at point `t`: entry (0, k, i) is the gate weights' entry (t, k, i). -/
theorem gate_blk (c : Dev nD) (t : Fin cfg0.N) (k : Fin 2048) (i : Fin 768) :
    (iblk m c 1 t : Vec Ideal S1x2048x768 .f32) (ix3 (0 : Fin 1) k i)
      = (V m c main_arg2 : S64x2048x768.Idx → Elt Ideal .f32) (ix3 (grp t) k i) := by
  obtain ⟨-, -, -, e0, e1, e2, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 3) * 1 + 1 * 0 = t.val; omega
  | ⟨1, _⟩ => show win0_1.index t (1 : Fin 3) * 2048 + 1 * k.val = k.val; omega
  | ⟨2, _⟩ => show win0_1.index t (2 : Fin 3) * 768 + 1 * i.val = i.val; omega

/-- The up block at point `t`: entry (0, k, i) is the up weights' entry (t, k, i). -/
theorem up_blk (c : Dev nD) (t : Fin cfg0.N) (k : Fin 2048) (i : Fin 768) :
    (iblk m c 2 t : Vec Ideal S1x2048x768 .f32) (ix3 (0 : Fin 1) k i)
      = (V m c main_arg3 : S64x2048x768.Idx → Elt Ideal .f32) (ix3 (grp t) k i) := by
  obtain ⟨-, -, -, -, -, -, e0, e1, e2, -⟩ := idx_facts t
  unfold iblk
  rw [View.read_apply]
  show V m c main_arg3 _ = V m c main_arg3 _
  refine congrArg (V m c main_arg3) (funext fun a => Fin.ext ?_)
  match a with
  | ⟨0, _⟩ => show win0_2.index t (0 : Fin 3) * 1 + 1 * 0 = t.val; omega
  | ⟨1, _⟩ => show win0_2.index t (1 : Fin 3) * 2048 + 1 * k.val = k.val; omega
  | ⟨2, _⟩ => show win0_2.index t (2 : Fin 3) * 768 + 1 * i.val = i.val; omega

/-- The down block at point `t`: entry (0, i, h) is the down weights' entry (t, i, h). -/
theorem down_blk (c : Dev nD) (t : Fin cfg0.N) (i : Fin 768) (h : Fin 2048) :
    (iblk m c 3 t : Vec Ideal S1x768x2048 .f32) (ix3 (0 : Fin 1) i h)
      = (V m c main_arg4 : S64x768x2048.Idx → Elt Ideal .f32) (ix3 (grp t) i h) := by
  obtain ⟨-, -, -, -, -, -, -, -, -, e0, e1, e2, -⟩ := idx_facts t
  unfold iblk
  rw [View.read_apply]
  show V m c main_arg4 _ = V m c main_arg4 _
  refine congrArg (V m c main_arg4) (funext fun a => Fin.ext ?_)
  match a with
  | ⟨0, _⟩ => show win0_3.index t (0 : Fin 3) * 1 + 1 * 0 = t.val; omega
  | ⟨1, _⟩ => show win0_3.index t (1 : Fin 3) * 768 + 1 * i.val = i.val; omega
  | ⟨2, _⟩ => show win0_3.index t (2 : Fin 3) * 2048 + 1 * h.val = h.val; omega

/-- The output block at point `t` sits at (t, ·, ·) of the result array. -/
theorem out_emb (t : Fin cfg0.N) (g : Fin 64) (h : Fin 2048) :
    ((cfg0.win 4).blk t).view.emb (ix3 (0 : Fin 1) g h) = (ix3 (grp t) g h : S64x64x2048.Idx) := by
  obtain ⟨-, -, -, -, -, -, -, -, -, -, -, -, e0, e1, e2⟩ := idx_facts t
  funext a; apply Fin.ext
  match a with
  | ⟨0, _⟩ => show win0_4.index t (0 : Fin 3) * 1 + 1 * 0 = t.val; omega
  | ⟨1, _⟩ => show win0_4.index t (1 : Fin 3) * 64 + 1 * g.val = g.val; omega
  | ⟨2, _⟩ => show win0_4.index t (2 : Fin 3) * 2048 + 1 * h.val = h.val; omega

/-! ## The result array -/

/-- The region's result: the grouped feed-forward of the arrays as the region finds them. -/
abbrev result (c : Dev nD) : S64x64x2048.Idx → Elt Ideal .f32 :=
  ffn (V m c main_v0) (V m c main_arg2) (V m c main_arg3) (V m c main_arg4)

/-- WHAT POINT `t` WRITES BACK is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz]
  simp only [View.ld_unit_zero (S := S1x64x2048) hz, View.ld_unit_zero (S := S1x2048x768) hz,
    View.ld_unit_zero (S := S1x768x2048) hz]
  funext y
  obtain ⟨u, g, h, rfl⟩ : ∃ (u : Fin 1) (g : Fin 64) (h : Fin 2048), y = ix3 u g h := ⟨y 0, y 1, y 2, eq_ix3 y⟩
  obtain rfl : u = 0 := Subsingleton.elim _ _
  show k0_pay1 (iblk m c 0 t) (iblk m c 1 t) (iblk m c 2 t) (iblk m c 3 t) (ix3 (0 : Fin 1) g h)
    = result m c (((cfg0.win 4).blk t).view.emb (ix3 (0 : Fin 1) g h))
  rw [out_emb t g h]
  exact block_eq (V m c main_v0) (V m c main_arg2) (V m c main_arg3) (V m c main_arg4) (grp t)
    (iblk m c 0 t) (iblk m c 1 t) (iblk m c 2 t) (iblk m c 3 t)
    (tokens_blk m c t) (gate_blk m c t) (up_blk m c t) (down_blk m c t) g h

/-- An index of the result array is in point `t`'s block iff each coordinate is in the block's range on its axis. -/
theorem mem_blk (t : Fin cfg0.N) (i : S64x64x2048.Idx) :
    i ∈ ((cfg0.win 4).blk t).view.set ↔ ∀ a : Fin 3, win0_4.index t a * S1x64x2048.size a ≤ (i a).val
      ∧ (i a).val < win0_4.index t a * S1x64x2048.size a + S1x64x2048.size a := by
  show i ∈ ((View.whole main_v1).slice (win0_4.rect t)).set ↔ _
  rw [View.set_slice_whole, Rect.mem_set_unit]
  exact Iff.rfl

/-- Every index (e, g, h) of the result array lies in the block of point `e`, which is written back. -/
theorem cover (i : S64x64x2048.Idx) :
    ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 2048 := (i 2).isLt
  have hN : cfg0.N = 64 := N_0
  obtain ⟨t, ht⟩ : ∃ t : Fin cfg0.N, t.val = (i 0).val := ⟨⟨(i 0).val, by omega⟩, rfl⟩
  obtain ⟨-, -, -, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 2048 ≤ (i 2).val ∧ (i 2).val < win0_4.index t (2 : Fin 3) * 2048 + 2048; omega

/-- THE ARRAY AFTER THE RUN is `result`: the 64 blocks tile it. -/
theorem final (c : Dev nD) : (dats m 0 c).arrAt 4 cfg0.N = result m c :=
  (dats m 0 c).arrAt_eq_of_cover 4 (result m c) (fun t _ => flushed_eq m c t) cover

/-! ## The reshapes around the region -/

/-- The tokens as the region finds them: the argument reshaped to [64, 64, 2048] by the one host operation before it. -/
theorem V_tokens (c : Dev nD) :
    (V m c main_v0 : S64x64x2048.Idx → Elt Ideal .f32)
      = shapeCast S64x64x2048 (m ((c : Thread nD τ).loc main_arg0)) shapeCasts_S4096x2048_S64x64x2048 := by
  show StableHlo.after hostOps0 (fun b => m (c, b)) (Proc.devRef .tc main_v0) = _
  after_results
  rfl

/-- The region's result as a function of the program's arguments. -/
theorem result_eq (c : Dev nD) :
    result m c = ffn (shapeCast S64x64x2048 (m ((c : Thread nD τ).loc main_arg0)) shapeCasts_S4096x2048_S64x64x2048)
      (m ((c : Thread nD τ).loc main_arg2)) (m ((c : Thread nD τ).loc main_arg3)) (m ((c : Thread nD τ).loc main_arg4)) := by
  show ffn (V m c main_v0) (V m c main_arg2) (V m c main_arg3) (V m c main_arg4) = _
  rw [V_tokens m c, V_main_arg2 m c, V_main_arg3 m c, V_main_arg4 m c]

/-- The program's result buffer: the one host operation after the region reshapes the region's array to [4096, 2048]. -/
theorem tail_eq (c : Dev nD) :
    Pipeline.afterTail₀ cfgs (dats m) 0 (V0 m) [hostOps1] c main_v2
      = shapeCast S4096x2048 (result m c) shapeCasts_S64x64x2048_S4096x2048 := by
  unfold Pipeline.afterTail₀
  show StableHlo.after hostOps1 _ (Proc.devRef .tc main_v2) = _
  after_results
  show shapeCast S4096x2048 (Pipeline.withArrays (cfgs 0).spec c (V0 m c) (fun w => (dats m 0 c).arrAt w (cfgs 0).N)
      (Proc.devRef .tc main_v1)) shapeCasts_S64x64x2048_S4096x2048 = _
  exact congrArg (fun X : S64x64x2048.Idx → Elt Ideal .f32 => shapeCast S4096x2048 X shapeCasts_S64x64x2048_S4096x2048)
    ((Pipeline.withArrays_arr spec0 launch0.win.arr_inj c _ _ 4).trans (final m c))

/-! ## The run, read -/

/-- The kernel program's run: every weakly fair execution terminates with the result buffer at the grouped feed-forward of
    the reshaped tokens and the weights, reshaped back to [4096, 2048], and the five arguments as launched. -/
theorem run : θ_run defs (onTc (τ := τ) (main (F := Ideal))) ⟨m, fun _ => 0, ρ⟩ fun r => ∀ c : Dev nD,
      r.2.mem ((c.tc : Thread nD τ).loc main_v2)
        = shapeCast S4096x2048
            (ffn (shapeCast S64x64x2048 (m ((c.tc : Thread nD τ).loc main_arg0)) shapeCasts_S4096x2048_S64x64x2048)
              (m ((c.tc : Thread nD τ).loc main_arg2)) (m ((c.tc : Thread nD τ).loc main_arg3)) (m ((c.tc : Thread nD τ).loc main_arg4)))
            shapeCasts_S64x64x2048_S4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans
        ((tail_eq m c).trans (by rw [result_eq m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.RunValue

end
-- ==== Proof.RefIsSpec.lean ====
/-
  The reference computes the specification.

  Read one operation at a time, the reference's array before its last reshape is, at (e, g, h), the sum over the
  768 hidden channels `i` of `silu(a) · b` times the down weight at (e, i, h), where `a` and `b` are the two
  batched products of the reshaped tokens with the gate and up weights, each a sum over the 2048 input channels. jax
  writes silu as `a · (1 / (1 + exp(-a)))`; on the extended reals that quotient IS the logistic function, by its
  definition. So the stage is `ffn` of the reshaped tokens and the three weight arrays, entry by entry, with the sums
  in the same order and nothing rearranged.
-/
import proofs.«181612_j63952063037999_2_alg».proof.Proof.Gen.ReferenceIdeal.Read
import proofs.«181612_j63952063037999_2_alg».proof.Proof.Spec
import Idealize.ShloMosaic.Lib.IdealHost

noncomputable section

namespace Cert.ReferenceIdeal.RefValue

open Cert.ReferenceIdeal Cert.ReferenceIdeal.Read Cert.ExpertFFN
open Idealize.ShloMosaic Idealize.ShloMosaic.ValueIdx

/-- jax's expansion of silu on the host, `a · (1 / (1 + exp(-a)))` with both ones the f32 pattern of 1, is
    `a · σ(a)` on the extended reals: the logistic function is that quotient by definition. -/
theorem silu_host (a : EReal) :
    FloatOps.mulf (F := Ideal) (φ := .f32) a
      (FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) a))))
      = a * Ideal.logistic a := by
  simp only [Ideal.mulf_def, Ideal.hostDivf_def, Ideal.addf_def, Ideal.hostUnary_exp_def, Ideal.hostNegf_def,
    Ideal.negf_def, Ideal.ofBits_def, Ideal.ofBits_one_f32, Ideal.logistic]

/-- The down projection reads its left operand at (e, g, i) and the down weights at (e, i, h). -/
theorem lidx5 (e g : Fin 64) (h : Fin 2048) (i : Fin 768) : lidx_main_v5 (ix3 e g h) i = ix3 e g i :=
  funext fun a => Fin.ext (by match a with | ⟨0, _⟩ => rfl | ⟨1, _⟩ => rfl | ⟨2, _⟩ => rfl)
theorem ridx5 (e g : Fin 64) (h : Fin 2048) (i : Fin 768) : ridx_main_v5 (ix3 e g h) i = ix3 e i h :=
  funext fun a => Fin.ext (by match a with | ⟨0, _⟩ => rfl | ⟨1, _⟩ => rfl | ⟨2, _⟩ => rfl)
/-- The gate projection at (e, g, i) reads the tokens at (e, g, k) and the gate weights at (e, k, i); -/
theorem lidx1 (e g : Fin 64) (i : Fin 768) (k : Fin 2048) : lidx_main_v1 (ix3 e g i) k = ix3 e g k :=
  funext fun a => Fin.ext (by match a with | ⟨0, _⟩ => rfl | ⟨1, _⟩ => rfl | ⟨2, _⟩ => rfl)
theorem ridx1 (e g : Fin 64) (i : Fin 768) (k : Fin 2048) : ridx_main_v1 (ix3 e g i) k = ix3 e k i :=
  funext fun a => Fin.ext (by match a with | ⟨0, _⟩ => rfl | ⟨1, _⟩ => rfl | ⟨2, _⟩ => rfl)
/-- and the up projection the same with the up weights. -/
theorem lidx2 (e g : Fin 64) (i : Fin 768) (k : Fin 2048) : lidx_main_v2 (ix3 e g i) k = ix3 e g k :=
  funext fun a => Fin.ext (by match a with | ⟨0, _⟩ => rfl | ⟨1, _⟩ => rfl | ⟨2, _⟩ => rfl)
theorem ridx2 (e g : Fin 64) (i : Fin 768) (k : Fin 2048) : ridx_main_v2 (ix3 e g i) k = ix3 e k i :=
  funext fun a => Fin.ext (by match a with | ⟨0, _⟩ => rfl | ⟨1, _⟩ => rfl | ⟨2, _⟩ => rfl)

/-- The gated product of the reference at (e, g, i): `a · σ(a) · b` with `a`, `b` the gate and up sums. -/
theorem gated_ref (x0 : (⟨S4096x2048, .f32⟩ : BufTy).Contents (Elt Ideal)) (x2 x3 : (⟨S64x2048x768, .f32⟩ : BufTy).Contents (Elt Ideal))
    (e g : Fin 64) (i : Fin 768) :
    val_main_v4 (F := Ideal) x0 x2 x3 (ix3 e g i)
      = gated (∑ k : Fin 2048, val_main_v0 (F := Ideal) x0 (ix3 e g k) * x2 (ix3 e k i))
          (∑ k : Fin 2048, val_main_v0 (F := Ideal) x0 (ix3 e g k) * x3 (ix3 e k i)) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v2_apply]
  simp only [lidx1, ridx1, lidx2, ridx2]
  rw [silu_host]
  rfl

/-- THE REFERENCE IS THE SPECIFICATION: its array before the last reshape is `ffn` of the reshaped tokens and the weights. -/
theorem stage_eq_ffn (x0 : (⟨S4096x2048, .f32⟩ : BufTy).Contents (Elt Ideal)) (x2 x3 : (⟨S64x2048x768, .f32⟩ : BufTy).Contents (Elt Ideal))
    (x4 : (⟨S64x768x2048, .f32⟩ : BufTy).Contents (Elt Ideal)) :
    val_main_v5 (F := Ideal) x0 x2 x3 x4 = ffn (val_main_v0 (F := Ideal) x0) x2 x3 x4 := by
  funext j
  obtain ⟨e, g, h, rfl⟩ : ∃ (e g : Fin 64) (h : Fin 2048), j = ix3 e g h := ⟨j 0, j 1, j 2, eq_ix3 j⟩
  rw [val_main_v5_apply, ffn_apply]
  unfold expert
  refine Finset.sum_congr rfl fun i _ => ?_
  rw [lidx5, ridx5, gated_ref]

end Cert.ReferenceIdeal.RefValue

end
-- ==== Proof.lean ====
/-
  A grouped expert feed-forward kernel against its jnp reference, equal on the extended reals.

  4096 tokens of width 2048 arrive sorted by expert in 64 equal groups of 64. Expert `e` has a gate and an up
  projection `Wg_e, Wu_e : 2048 × 768` and a down projection `Wd_e : 768 × 2048`, and maps a token row `x` to

      out[h] = Σ_i  (a_i · σ(a_i) · b_i) · Wd_e[i, h],     a_i = Σ_k x[k] · Wg_e[k, i],    b_i = Σ_k x[k] · Wu_e[k, i],

  with `σ(a) = 1 / (1 + e^(-a))` the logistic function (`a · σ(a)` is silu). Both programs reshape the tokens to
  [64, 64, 2048], compute this, and reshape the result back to [4096, 2048].

  The kernel runs one grid point per expert: it loads the expert's token block and three weight blocks, rounds them to
  bf16, multiplies on the matrix unit into zero accumulators, applies `a · logistic(a) · b`, rounds, multiplies by the
  down block, and stores the group's [64, 2048] block. The reference is three batched `dot_general`s around jax's
  silu, `a · (1 / (1 + exp(-a)))`. On the extended reals rounding to bf16 is the identity, a matrix product into a zero
  accumulator and a `dot_general` are the same finite sum of products, and the quotient `1 / (1 + exp(-a))` is the
  logistic function by definition. So the two programs compute the same sums of the same products in the same order: no
  term is moved across a sum, nothing is distributed or cancelled, and the finiteness of the inputs is never used.

  The modules: `Spec` states the function (`expert`, `ffn`) with no program in sight; `RefIsSpec` reads the reference
  one operation at a time and finds `ffn`; `BodyValue` reads what one grid point stores, entry by entry, and finds the
  expert's output on that group; `RunValue` shows the 64 stored blocks tile the result array, which is therefore `ffn`
  of the arrays as the region finds them, and carries it through the reshapes before and after the region. Here the two
  runs are put side by side. The ideal pass rewrote nothing, so the kernel's idealization is its own text.
-/
import proofs.«181612_j63952063037999_2_alg».proof.Defs
import proofs.«181612_j63952063037999_2_alg».proof.Proof.Gen.Kernel
import proofs.«181612_j63952063037999_2_alg».proof.Proof.Gen.Kernel.Frame
import proofs.«181612_j63952063037999_2_alg».proof.Proof.Gen.KernelIdeal
import proofs.«181612_j63952063037999_2_alg».proof.Proof.Gen.KernelIdeal.Frame
import proofs.«181612_j63952063037999_2_alg».proof.Proof.Gen.ReferenceIdeal
import proofs.«181612_j63952063037999_2_alg».proof.Proof.Gen.ReferenceIdeal.Run
import proofs.«181612_j63952063037999_2_alg».proof.Proof.Gen.ReferenceIdeal.Read
import proofs.«181612_j63952063037999_2_alg».proof.Proof.Gen.Pre_finite_inputs
import proofs.«181612_j63952063037999_2_alg».proof.Proof.RunValue
import proofs.«181612_j63952063037999_2_alg».proof.Proof.RefIsSpec
import Idealize.ShloMosaic.Adequacy
import Idealize.ShloMosaic.Init

noncomputable section

namespace Cert.Proof

open Idealize.ShloMosaic Idealize.SL.Sem

/-- The word-level kernel runs, faults nowhere, and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve beyond the text itself. -/
theorem preserves : Cert.preserves_Kernel_KernelIdeal := trivial

/-- From memories that agree on the five arguments, the kernel's result buffer and the reference's both end at the grouped
    feed-forward of the reshaped tokens and the weights, reshaped back to [4096, 2048]: the kernel's by its run read block by
    block, the reference's by its run read operation by operation. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefValue.stage_eq_ffn]
  unfold Cert.ReferenceIdeal.Read.val_main_v0
  rw [(hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
